-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x410 : Shape := ⟨2, ![4096, 410]⟩
abbrev S410 : Shape := ⟨1, ![410]⟩
abbrev S4096x4096 : Shape := ⟨2, ![4096, 4096]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x410 : S_.BroadcastsInDim S4096x410 (![] : Fin 0 → Fin S4096x410.rank)
  reducesTo_S4096x410_S_d0_1 : S4096x410.ReducesTo [0, 1] S_
  bcast_S_S410 : S_.BroadcastsInDim S410 (![] : Fin 0 → Fin S410.rank)
  reducesTo_S410_S_d0 : S410.ReducesTo [0] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096x4096 .f32) (main_v13 : IVec S_ 1) (main_v16 : IVec S4096x410 1) : IVec S_ 1 :=
  let main_c_5 : IVec S_ 1 := constantI S_ 1 1#1
  let main_v17 : IVec S_ 1 := (fun x v => Host.reduce IntOp.andi x v reducesTo_S4096x410_S_d0_1 h_S_) main_v16 main_c_5
  let main_v18 : IVec S_ 1 := andi main_v13 main_v17
  let main_v19 : FVec F S4096x4096 .f32 := Host.absf main_arg4
  let main_cst_6 : FVec F S_ .f32 := constant S_ .f32 0x7F800000#32
  let main_v20 : FVec F S4096x4096 .f32 := broadcastInDim S4096x4096 ![] bcast_S_S4096x4096 main_cst_6
  let main_v21 : IVec S4096x4096 1 := cmpf .olt main_v19 main_v20
  let main_c_7 : IVec S_ 1 := constantI S_ 1 1#1
  let main_v22 : IVec S_ 1 := (fun x v => Host.reduce IntOp.andi x v reducesTo_S4096x4096_S_d0_1 h_S_) main_v21 main_c_7
  let main_v23 : IVec S_ 1 := andi main_v18 main_v22
  main_v23

def fn {F : FTy → Type} [FloatOps F] (main_arg0 : FVec F S1024x4096 .f32) (main_arg1 : FVec F S4096x410 .f32) (main_arg2 : FVec F S410 .f32) (main_arg3 : FVec F S4096x410 .f32) (main_arg4 : FVec F S4096x4096 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096x410 .f32 := Host.absf main_arg1
  let main_cst_0 : FVec F S_ .f32 := constant S_ .f32 0x7F800000#32
  let main_v5 : FVec F S4096x410 .f32 := broadcastInDim S4096x410 ![] bcast_S_S4096x410 main_cst_0
  let main_v6 : IVec S4096x410 1 := cmpf .olt main_v4 main_v5
  let main_c_1 : IVec S_ 1 := constantI S_ 1 1#1
  let main_v7 : IVec S_ 1 := (fun x v => Host.reduce IntOp.andi x v reducesTo_S4096x410_S_d0_1 h_S_) main_v6 main_c_1
  let main_v8 : IVec S_ 1 := andi main_v3 main_v7
  let main_v9 : FVec F S410 .f32 := Host.absf main_arg2
  let main_cst_2 : FVec F S_ .f32 := constant S_ .f32 0x7F800000#32
  let main_v10 : FVec F S410 .f32 := broadcastInDim S410 ![] bcast_S_S410 main_cst_2
  let main_v11 : IVec S410 1 := cmpf .olt main_v9 main_v10
  let main_c_3 : IVec S_ 1 := constantI S_ 1 1#1
  let main_v12 : IVec S_ 1 := (fun x v => Host.reduce IntOp.andi x v reducesTo_S410_S_d0 h_S_) main_v11 main_c_3
  let main_v13 : IVec S_ 1 := andi main_v8 main_v12
  let main_v14 : FVec F S4096x410 .f32 := Host.absf main_arg3
  let main_cst_4 : FVec F S_ .f32 := constant S_ .f32 0x7F800000#32
  let main_v15 : FVec F S4096x410 .f32 := broadcastInDim S4096x410 ![] bcast_S_S4096x410 main_cst_4
  let main_v16 : IVec S4096x410 1 := cmpf .olt main_v14 main_v15
  fn_part1 (F := F) main_arg4 main_v13 main_v16
-- ==== Kernel.lean ====
abbrev S1024x4096 : Shape := ⟨2, ![1024, 4096]⟩
abbrev S4096x410 : Shape := ⟨2, ![4096, 410]⟩
abbrev S410 : Shape := ⟨1, ![410]⟩
abbrev S4096x4096 : Shape := ⟨2, ![4096, 4096]⟩
abbrev S1024x410 : Shape := ⟨2, ![1024, 410]⟩
abbrev S_ : Shape := ⟨0, ![]⟩
abbrev S1024x512 : Shape := ⟨2, ![1024, 512]⟩
abbrev S1x410 : Shape := ⟨2, ![1, 410]⟩
abbrev S4096x512 : Shape := ⟨2, ![4096, 512]⟩
abbrev S1024x1024 : Shape := ⟨2, ![1024, 1024]⟩
abbrev S512x1024 : Shape := ⟨2, ![512, 1024]⟩

abbrev nBuf : Space → Nat
  | .hbm => 20
  | .vmem => 9
  | .smem => 0
  | _ => 0

abbrev bufTy : (tb : Table) → Fin (tcTables nBuf tb) → BufTy
  | .hbm, ⟨0, _⟩ => ⟨S1024x4096, .f32⟩
  | .hbm, ⟨1, _⟩ => ⟨S4096x410, .f32⟩
  | .hbm, ⟨2, _⟩ => ⟨S410, .f32⟩
  | .hbm, ⟨3, _⟩ => ⟨S4096x410, .f32⟩
  | .hbm, ⟨4, _⟩ => ⟨S4096x4096, .f32⟩
  | .hbm, ⟨5, _⟩ => ⟨S1024x410, .f32⟩
  | .hbm, ⟨6, _⟩ => ⟨S_, .i32⟩
  | .hbm, ⟨7, _⟩ => ⟨S_, .f32⟩
  | .hbm, ⟨8, _⟩ => ⟨S1024x512, .f32⟩
  | .hbm, ⟨9, _⟩ => ⟨S1024x512, .bf16⟩
  | .hbm, ⟨10, _⟩ => ⟨S1x410, .f32⟩
  | .hbm, ⟨11, _⟩ => ⟨S4096x410, .f32⟩
  | .hbm, ⟨12, _⟩ => ⟨S4096x410, .f32⟩
  | .hbm, ⟨13, _⟩ => ⟨S_, .i32⟩
  | .hbm, ⟨14, _⟩ => ⟨S_, .f32⟩
  | .hbm, ⟨15, _⟩ => ⟨S4096x512, .f32⟩
  | .hbm, ⟨16, _⟩ => ⟨S4096x512, .bf16⟩
  | .hbm, ⟨17, _⟩ => ⟨S1024x4096, .bf16⟩
  | .hbm, ⟨18, _⟩ => ⟨S4096x4096, .bf16⟩
  | .hbm, ⟨19, _⟩ => ⟨S1024x4096, .f32⟩
  | .local _ .vmem, ⟨0, _⟩ => ⟨S1024x4096, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_call1_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c512_i32 : BitVec 32 := 512#32
  let v3 : BitVec 32 := Scalar.muli arg1 c512_i32
  v3
def k0_off1 (i : grid0.Coords) : Fin 2 → Nat :=
  let c0 : Index := 0#32
  let arg1 : BitVec 32 := BitVec.ofNat 32 (i 1).val
  let c512_i32 : BitVec 32 := 512#32
  let v3 : BitVec 32 := Scalar.muli arg1 c512_i32
  let v4 : BitVec 32 := v3
  let v5 : Index := Scalar.indexCast v4
  ![0, v5.toNat]
def k0_cond2 (i : grid0.Coords) : BitVec 1 :=
  let arg1 : BitVec 32 := BitVec.ofNat 32 (i 1).val
  let c7_i32 : BitVec 32 := 7#32
  let v17 : BitVec 1 := Scalar.cmpi .eq arg1 c7_i32
  let v18 : BitVec 32 := Scalar.extui v17
  let c0_i32_7 : BitVec 32 := 0#32
  let v19 : BitVec 1 := Scalar.cmpi .ne v18 c0_i32_7
  v19

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  pads_S1024x410_S1024x512_000_01020 : S1024x410.Pads (![0, 0] : Fin 2 → Nat) ![0, 102] ![0, 0] S1024x512
  h_S_ : 0 < S_.numel
  bitsLt_bf16_f32 : FTy.bits .bf16 < FTy.bits .f32
  bcast_S410_S1x410_1 : S410.BroadcastsInDim S1x410 (![1] : Fin 1 → Fin S1x410.rank)
  bcast_S1x410_S4096x410_0_1 : S1x410.BroadcastsInDim S4096x410 (![0, 1] : Fin 2 → Fin S4096x410.rank)
  pads_S4096x410_S4096x512_000_01020 : S4096x410.Pads (![0, 0] : Fin 2 → Nat) ![0, 102] ![0, 0] S4096x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  transposes_S1024x512_p1_0_S512x1024 : S1024x512.Transposes [1, 0] S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  dot_S1024x4096_S4096x410_S1024x410_1_0_0_1_n_n_wf : DotDims.WF S1024x4096 S4096x410 S1024x410 [1] [0] [0] [1] [] []
  dot_S1024x512_S512x1024_S1024x1024_1_0_0_1_n_n_wf : DotDims.WF S1024x512 S512x1024 S1024x1024 [1] [0] [0] [1] [] []
  hrank0 : 0 < grid0.rank
  k0_mult1_dvd : ∀ i : grid0.Coords, 128 ∣ (k0_mult1 i).toNat
  k0_off1_inb : ∀ i : grid0.Coords, ∀ a, (k0_off1 i) a + S1024x512.size a ≤ S1024x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S1024x4096.size a
  hwx0_0 : ∀ i : grid0.Coords, EltTy.bits .bf16 = 32 ∨ (Rect.block (s := S1024x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .bf16 = 32 ∨ (Rect.block (s := S4096x4096) S1024x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .bf16 = 32 ∨ (Rect.block (s := S1024x512) S1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S4096x512.size a
  hwx0_3 : ∀ i : grid0.Coords, EltTy.bits .bf16 = 32 ∨ (Rect.block (s := S4096x512) S1024x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x4096.size a
  hwx0_4 : ∀ i : grid0.Coords, EltTy.bits .f32 = 32 ∨ (Rect.block (s := S1024x4096) S1024x1024.size (cc0_transform_4 i) (hinb0_4 i)).WholeWords (EltTy.packing .f32)

variable [Facts₀]

def dot_S1024x4096_S4096x410_S1024x410_1_0_0_1_n_n : DotDims S1024x4096 S4096x410 S1024x410 where
  lhsContracting := [1]
  rhsContracting := [0]
  lhsNonContracting := [0]
  rhsNonContracting := [1]
  lhsBatch := []
  rhsBatch := []
  wf := dot_S1024x4096_S4096x410_S1024x410_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_v8) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S1024x4096 : Shape := ⟨2, ![1024, 4096]⟩
abbrev S4096x410 : Shape := ⟨2, ![4096, 410]⟩
abbrev S410 : Shape := ⟨1, ![410]⟩
abbrev S4096x4096 : Shape := ⟨2, ![4096, 4096]⟩
abbrev S1x410 : Shape := ⟨2, ![1, 410]⟩
abbrev S410x4096 : Shape := ⟨2, ![410, 4096]⟩

abbrev nBuf : Space → Nat
  | .hbm => 13
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x410, .f32⟩
  | .hbm, ⟨2, _⟩ => ⟨S410, .f32⟩
  | .hbm, ⟨3, _⟩ => ⟨S4096x410, .f32⟩
  | .hbm, ⟨4, _⟩ => ⟨S4096x4096, .f32⟩
  | .hbm, ⟨5, _⟩ => ⟨S1x410, .f32⟩
  | .hbm, ⟨6, _⟩ => ⟨S4096x410, .f32⟩
  | .hbm, ⟨7, _⟩ => ⟨S4096x410, .f32⟩
  | .hbm, ⟨8, _⟩ => ⟨S410x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S410_S1x410_1 : S410.BroadcastsInDim S1x410 (![1] : Fin 1 → Fin S1x410.rank)
  bcast_S1x410_S4096x410_0_1 : S1x410.BroadcastsInDim S4096x410 (![0, 1] : Fin 2 → Fin S4096x410.rank)
  transposes_S4096x410_S410x4096_1_0 : S4096x410.Transposes [1, 0] S410x4096
  transposes_S4096x4096_S4096x4096_1_0 : S4096x4096.Transposes [1, 0] S4096x4096
  dot_S4096x410_S410x4096_S4096x4096_1_0_0_1_n_n_wf : DotDims.WF S4096x410 S410x4096 S4096x4096 [1] [0] [0] [1] [] []
  dot_S1024x4096_S4096x4096_S1024x4096_1_0_0_1_n_n_wf : DotDims.WF S1024x4096 S4096x4096 S1024x4096 [1] [0] [0] [1] [] []

variable [Facts₀]

def dot_S4096x410_S410x4096_S4096x4096_1_0_0_1_n_n : DotDims S4096x410 S410x4096 S4096x4096 where
  lhsContracting := [1]
  rhsContracting := [0]
  lhsNonContracting := [0]
  rhsNonContracting := [1]
  lhsBatch := []
  rhsBatch := []
  wf := dot_S4096x410_S410x4096_S4096x4096_1_0_0_1_n_n_wf
def dot_S1024x4096_S4096x4096_S1024x4096_1_0_0_1_n_n : DotDims S1024x4096 S4096x4096 S1024x4096 where
  lhsContracting := [1]
  rhsContracting := [0]
  lhsNonContracting := [0]
  rhsNonContracting := [1]
  lhsBatch := []
  rhsBatch := []
  wf := dot_S1024x4096_S4096x4096_S1024x4096_1_0_0_1_n_n_wf

class Facts : Prop extends Facts₀ where

variable [Facts]
-- ==== Proof.StepValues.lean ====
/-
  What one grid step leaves behind, as the two arithmetic payloads of the body.

  The grid is (j, k): j picks a tile of 1024 output columns, k a tile of 512 contraction positions. The body keeps
  a 1024×1024 accumulator across the eight k-steps of one j. At k = 0 it first stores the low-rank product
  (the 1024×512 block of input·V, padded, times the transposed 1024×512 block of U·σ, padded) and then, like
  every later step, adds the product of the input's columns 512·k … 512·k + 511 with the transposed weight
  block (j, k). At k = 7 it also copies the accumulator into the output block. Each case's stores cover the
  whole buffer, so what is left is the last store's payload, and a load of the accumulator after a store
  reads that store's payload.
-/
import proofs.«111800_j77240691851703_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Steps

open Cert.KernelIdeal Cert.KernelIdeal.Gen

variable {F : FTy → Type} [FloatOps F]

theorem zeroOffsets : (![0, 0] : Fin 2 → Nat) = fun _ => 0 := funext fun a => by fin_cases a <;> rfl

/-- The 512 columns of the resident input that the body loads at grid point `i`: columns 512·k … 512·k + 511. -/
def inCols (i : grid0.Coords) (x0 : Vec F S1024x4096 .bf16) : Vec F S1024x512 .bf16 :=
  View.ld x0 (Rect.unit (k0_off1 i) S1024x512.size (Facts₀.k0_off1_inb i))

/-- At k = 0 the accumulator is left at the low-rank product plus the first weight-tile product. -/
theorem acc_first (c : Dev nD) (i : grid0.Coords) (arg2 : Memref sig .tc .vmem S1024x4096 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i) (x0 : Vec F S1024x4096 .bf16) (x1 : Vec F S1024x512 .bf16) (x2 : Vec F S1024x512 .bf16) (x3 : Vec F S1024x512 .bf16) :
    sout0_A_0 c i arg2 harg2 arg3 harg3 arg4 harg4 arg5 harg5 arg6 harg6 arg7 harg7 hc0 hc1 x0 x1 x2 x3 = k0_pay2 (inCols i x0) (k0_pay1 x2 x3) x1 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024x1024) zeroOffsets, View.readCov_unit_zero (S := S1024x1024) _ zeroOffsets]
  simp only [View.readAt_eq_ld, harg2.read_unread, harg3.read_unread, harg4.read_unread, harg5.read_unread,
    View.ld_unit_zero (S := S1024x512) zeroOffsets]
  rfl

/-- At 0 < k < 7 the accumulator is left at what it held plus this step's weight-tile product. -/
theorem acc_mid (c : Dev nD) (i : grid0.Coords) (arg2 : Memref sig .tc .vmem S1024x4096 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i) (x0 : Vec F S1024x4096 .bf16) (x1 : Vec F S1024x512 .bf16) (x2 : Vec F S1024x512 .bf16) (x3 : Vec F S1024x512 .bf16) (xs0 : Vec F S1024x1024 .f32) :
    sout0_B_0 c i arg2 harg2 arg3 harg3 arg4 harg4 arg5 harg5 arg6 harg6 arg7 harg7 hc0 hc1 x0 x1 x2 x3 xs0 = k0_pay2 (inCols i x0) xs0 x1 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  rw [View.canon_unit_zero zeroOffsets]
  simp only [View.readAt_eq_ld, harg2.read_unread, harg3.read_unread, harg7.read_unread,
    View.ld_unit_zero (S := S1024x1024) zeroOffsets, View.ld_unit_zero (S := S1024x512) zeroOffsets]
  rfl

/-- At k = 7 the accumulator is left at what it held plus the last weight-tile product, -/
theorem acc_last (c : Dev nD) (i : grid0.Coords) (arg2 : Memref sig .tc .vmem S1024x4096 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i) (x0 : Vec F S1024x4096 .bf16) (x1 : Vec F S1024x512 .bf16) (x2 : Vec F S1024x512 .bf16) (x3 : Vec F S1024x512 .bf16) (xs0 : Vec F S1024x1024 .f32) :
    sout0_C_0 c i arg2 harg2 arg3 harg3 arg4 harg4 arg5 harg5 arg6 harg6 arg7 harg7 hc0 hc1 x0 x1 x2 x3 xs0 = k0_pay2 (inCols i x0) xs0 x1 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero zeroOffsets]
  simp only [View.readAt_eq_ld, harg2.read_unread, harg3.read_unread, harg7.read_unread,
    View.ld_unit_zero (S := S1024x1024) zeroOffsets, View.ld_unit_zero (S := S1024x512) zeroOffsets]
  rfl

/-- and the output block is that same value: the body reads the accumulator back and stores it. -/
theorem out_last (c : Dev nD) (i : grid0.Coords) (arg2 : Memref sig .tc .vmem S1024x4096 .bf16) (harg2 : arg2.IsWhole) (arg3 : Memref sig .tc .vmem S1024x512 .bf16) (harg3 : arg3.IsWhole) (arg4 : Memref sig .tc .vmem S1024x512 .bf16) (harg4 : arg4.IsWhole) (arg5 : Memref sig .tc .vmem S1024x512 .bf16) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i) (x0 : Vec F S1024x4096 .bf16) (x1 : Vec F S1024x512 .bf16) (x2 : Vec F S1024x512 .bf16) (x3 : Vec F S1024x512 .bf16) (xs0 : Vec F S1024x1024 .f32) :
    out0_C_4 c i arg2 harg2 arg3 harg3 arg4 harg4 arg5 harg5 arg6 harg6 arg7 harg7 hc0 hc1 x0 x1 x2 x3 xs0 = k0_pay2 (inCols i x0) xs0 x1 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero zeroOffsets, View.readCov_unit_zero (S := S1024x1024) _ zeroOffsets]
  simp only [View.readAt_eq_ld, harg2.read_unread, harg3.read_unread, harg7.read_unread,
    View.ld_unit_zero (S := S1024x1024) zeroOffsets, View.ld_unit_zero (S := S1024x512) zeroOffsets]
  rfl

end Cert.KernelIdeal.Steps

end
-- ==== Proof.LibPlainDot.lean ====
/-
  A plain matrix product read at an index, over the extended reals.

  For the dimension numbers of an M×K by K×N product (contract the left operand's second axis with the
  right operand's first; no batch axes) the entry (i, j) of the product is the sum over k of
  lhs (i, k) · rhs (k, j): stated once for a `tpu.matmul` accumulating into the zero splat and once for
  the host's `dot_general`, for any extents M, K, N. The contraction index of such a product has one
  axis of extent K, and the sum over it is re-indexed by that coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable {M K N : Nat}

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, show 0 < (DotDims.plain M K N).contr.rank from Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, show 0 < (DotDims.plain M K N).contr.rank from Nat.one_pos⟩).val :=
  (DotDims.plain M K N).rhsIdx_val_of_single rfl j q

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the contraction index of a plain product is the sum over k of lhs (i, k) · rhs (k, j). -/
theorem sum_contr (lhs : (⟨2, ![M, K]⟩ : Shape).Idx → EReal) (rhs : (⟨2, ![K, N]⟩ : Shape).Idx → EReal)
    (i : Fin M) (j : Fin N) :
    (∑ q : (DotDims.plain M K N).contr.Idx,
        lhs ((DotDims.plain M K N).lhsIdx (ix2 i j) q) * rhs ((DotDims.plain M K N).rhsIdx (ix2 i j) q))
      = ∑ k : Fin K, lhs (ix2 i k) * rhs (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => exact lhs_row _ _
      | ⟨1, _⟩ => exact (lhs_col _ _).trans hk)
  have er : (DotDims.plain M K N).rhsIdx (ix2 i j) ((contrEquiv1 (DotDims.plain M K N) K rfl rfl).symm k) = ix2 k j :=
    funext fun a => Fin.ext (by
      match a with
      | ⟨0, _⟩ => exact (rhs_row _ _).trans hk
      | ⟨1, _⟩ => exact rhs_col _ _)
  rw [el, er]

/-- A `tpu.matmul` of plain dimension numbers into the zero splat, at (i, j): the sum over k of the products. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    FloatOps.matmul (DotDims.plain M K N) prec lhs rhs (constant ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_contr lhs rhs i j)

/-- The host's `dot_general` of plain dimension numbers, at (i, j): the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (i : Fin M) (j : Fin N) :
    FloatOps.dotGeneral (DotDims.plain M K N) prec sched lhs rhs (ix2 i j)
      = ∑ k : Fin K, lhs (ix2 i k) * rhs (ix2 k j) :=
  (Ideal.dotGeneral_apply (DotDims.plain M K N) prec sched lhs rhs (ix2 i j)).trans (sum_contr lhs rhs i j)

end Idealize.ShloMosaic.PlainDot

end
-- ==== Proof.PayloadIdx.lean ====
/-
  The body's two products read at an index, over the extended reals.

  With the accumulator of a matrix unit at zero, a product of a 1024×512 block A with the transpose of a
  1024×512 block B has, at (p, q), the entry  ∑_r A(p, r) · B(q, r).  The first payload is that product of the
  low-rank factors; the second adds such a product, of 512 input columns with a weight block, to what the
  accumulator held. The columns the body loads at contraction step k are columns 512·k … 512·k + 511 of the
  resident input.
-/
import proofs.«111800_j77240691851703_2_alg».proof.Proof.StepValues
import proofs.«111800_j77240691851703_2_alg».proof.Proof.LibPlainDot
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.ValueIdx
open scoped BigOperators

namespace Cert.KernelIdeal.Steps

open Cert.KernelIdeal Cert.KernelIdeal.Gen

/-- The transpose of a 1024×512 block at (r, q) is the block at (q, r). -/
theorem transposed_apply (b : FVec Ideal S1024x512 .bf16) (r : Fin 512) (q : Fin 1024) :
    transpose S512x1024 [1, 0] b Facts₀.transposes_S1024x512_p1_0_S512x1024 (ix2 r q) = b (ix2 q r) :=
  transpose_apply [1, 0] b Facts₀.transposes_S1024x512_p1_0_S512x1024 (ix2 r q) (ix2 q r)
    (fun a => match a with | ⟨0, _⟩ => rfl | ⟨1, _⟩ => rfl)

/-- A block times a transposed block, into the zero accumulator, at (p, q): the sum over r of a(p, r) · b(q, r). -/
theorem blockProduct_apply (a b : FVec Ideal S1024x512 .bf16) (p q : Fin 1024) :
    matmul dot_S1024x512_S512x1024_S1024x1024_1_0_0_1_n_n none a
        (transpose S512x1024 [1, 0] b Facts₀.transposes_S1024x512_p1_0_S512x1024)
        (constant S1024x1024 .f32 0x00000000#32) (ix2 p q)
      = ∑ r : Fin 512, a (ix2 p r) * b (ix2 q r) := by
  refine (PlainDot.matmul_zero_apply (M := 1024) (K := 512) (N := 1024) none a
    (transpose S512x1024 [1, 0] b Facts₀.transposes_S1024x512_p1_0_S512x1024) p q).trans ?_
  exact Finset.sum_congr rfl fun r _ => congrArg (a (ix2 p r) * ·) (transposed_apply b r q)

/-- The low-rank product at (p, q). -/
theorem lowRank_apply (x2 x3 : Vec Ideal S1024x512 .bf16) (p q : Fin 1024) :
    k0_pay1 (F := Ideal) x2 x3 (ix2 p q) = ∑ r : Fin 512, x2 (ix2 p r) * x3 (ix2 q r) := by
  unfold k0_pay1
  simp only [shapeCast_self]
  exact blockProduct_apply x2 x3 p q

/-- One accumulation step at (p, q): what the accumulator held plus the sum over l of cols(p, l) · w(q, l). -/
theorem accStep_apply (v6 : Vec Ideal S1024x512 .bf16) (v8 : Vec Ideal S1024x1024 .f32) (v9 : Vec Ideal S1024x512 .bf16)
    (p q : Fin 1024) :
    k0_pay2 (F := Ideal) v6 v8 v9 (ix2 p q) = v8 (ix2 p q) + ∑ l : Fin 512, v6 (ix2 p l) * v9 (ix2 q l) := by
  unfold k0_pay2
  simp only [shapeCast_self]
  exact congrArg (v8 (ix2 p q) + ·) (blockProduct_apply v6 v9 p q)

/-- The loaded columns at (p, l): the input at (p, 512·k + l), k the point's second coordinate. -/
theorem inCols_apply (i : grid0.Coords) (x0 : Vec Ideal S1024x4096 .bf16) (p : Fin 1024) (l : Fin 512)
    (n : Fin 4096) (hn : n.val = 512 * (i 1).val + l.val) :
    inCols (F := Ideal) i x0 (ix2 p l) = x0 (ix2 p n) := by
  unfold inCols
  show x0 _ = x0 _
  refine congrArg x0 (funext fun a => Fin.ext ?_)
  match a with
  | ⟨0, _⟩ =>
    show (k0_off1 i) 0 + 1 * p.val = p.val
    rw [k0_off1_eq i]
    show 0 + 1 * p.val = p.val
    omega
  | ⟨1, _⟩ =>
    show (k0_off1 i) 1 + 1 * l.val = n.val
    rw [k0_off1_eq i, hn]
    show 512 * (i 1).val + 1 * l.val = _
    omega

end Cert.KernelIdeal.Steps

end
-- ==== Proof.EntryArrays.lean ====
/-
  What the region finds in the four arrays its windows read.

  Before the launch the host computes  t = input · V  (1024×410) and  us = U · σ  (4096×410, column r scaled by
  σ_r), pads both with zero columns to width 512 (the padding value is the integer 0 converted to a float), and
  changes the format of t, us, the input and the weight to bf16, which over the extended reals changes nothing.
  So the padded factors read, at column r:  the factor's own entry for r < 410, and 0 for 410 ≤ r < 512.
-/
import proofs.«111800_j77240691851703_2_alg».proof.Proof.Gen.KernelIdeal.Frame
import proofs.«111800_j77240691851703_2_alg».proof.Proof.LibPlainDot
import Idealize.ShloMosaic.Lib.Pipeline.Value
import Idealize.ShloMosaic.Lib.StableHlo.Run
import Idealize.ShloMosaic.Lib.KernelVsHost
import Idealize.ShloMosaic.Lib.ValueIdx

set_option maxRecDepth 16384

noncomputable section

open Idealize.ShloMosaic Idealize.ShloMosaic.TcCoe Idealize.SL.Sem Idealize.ShloMosaic.StableHlo
open Idealize.ShloMosaic.ValueIdx
open scoped BigOperators

namespace Cert.KernelIdeal.Entry

open Cert.KernelIdeal Cert.KernelIdeal.Gen

/-! ## Padding 410 columns to 512 -/

/-- The padding value: the integer zero converted to a float is zero. -/
theorem padValue (j : S_.Idx) : (sitofp (F := Ideal) .f32 (constantI S_ 32 0#32)) j = (0 : EReal) := by
  show ((((0#32 : BitVec 32).toInt : ℤ) : ℝ) : EReal) = 0
  simp

/-- A column below 410 of the padded matrix is the matrix's own column. -/
theorem padCols_inside {a : Nat} (y : (⟨2, ![a, 410]⟩ : Shape).Idx → EReal) (z : S_.Idx → EReal)
    (h : (⟨2, ![a, 410]⟩ : Shape).Pads ![0, 0] ![0, 102] ![0, 0] ⟨2, ![a, 512]⟩) (hu : 0 < S_.numel)
    (p : Fin a) (r : Fin 512) (hr : r.val < 410) :
    pad ⟨2, ![a, 512]⟩ ![0, 0] ![0, 102] ![0, 0] y z h hu (ix2 p r) = y (ix2 p ⟨r.val, hr⟩) :=
  pad_apply_of_inside ![0, 0] ![0, 102] ![0, 0] y z h hu (ix2 p r) (ix2 p ⟨r.val, hr⟩)
    (fun b => match b with
      | ⟨0, _⟩ => by show p.val = 0 + p.val * (0 + 1); omega
      | ⟨1, _⟩ => by show r.val = 0 + r.val * (0 + 1); omega)

/-- A column from 410 on is the padding value. -/
theorem padCols_outside {a : Nat} (y : (⟨2, ![a, 410]⟩ : Shape).Idx → EReal) (z : S_.Idx → EReal)
    (h : (⟨2, ![a, 410]⟩ : Shape).Pads ![0, 0] ![0, 102] ![0, 0] ⟨2, ![a, 512]⟩) (hu : 0 < S_.numel)
    (p : Fin a) (r : Fin 512) (hr : ¬r.val < 410) :
    pad ⟨2, ![a, 512]⟩ ![0, 0] ![0, 102] ![0, 0] y z h hu (ix2 p r) = z (Shape.Idx.first hu) := by
  refine pad_apply_of_not_inside ![0, 0] ![0, 102] ![0, 0] y z h hu (ix2 p r) 1 (fun hh => hr ?_)
  have h3 : (r.val - 0) / (0 + 1) < 410 := hh.2.2
  omega

/-! ## The two low-rank factors as the host prepares them -/

/-- input · V, padded to 512 columns. -/
def tPad (x : FVec Ideal S1024x4096 .f32) (v : FVec Ideal S4096x410 .f32) : S1024x512.Idx → EReal :=
  truncf (F := Ideal) .bf16 (pad S1024x512 ![0, 0] ![0, 102] ![0, 0]
    (Host.dotGeneral (F := Ideal) dot_S1024x4096_S4096x410_S1024x410_1_0_0_1_n_n none x v)
    (sitofp (F := Ideal) .f32 (constantI S_ 32 0#32)) Facts₀.pads_S1024x410_S1024x512_000_01020 Facts₀.h_S_)
    Facts₀.bitsLt_bf16_f32

/-- U · σ, padded to 512 columns. -/
def usPad (u : FVec Ideal S4096x410 .f32) (s : FVec Ideal S410 .f32) : S4096x512.Idx → EReal :=
  truncf (F := Ideal) .bf16 (pad S4096x512 ![0, 0] ![0, 102] ![0, 0]
    (mulf u (broadcastInDim S4096x410 ![0, 1] Facts₀.bcast_S1x410_S4096x410_0_1
      (broadcastInDim S1x410 ![1] Facts₀.bcast_S410_S1x410_1 s)))
    (sitofp (F := Ideal) .f32 (constantI S_ 32 0#32)) Facts₀.pads_S4096x410_S4096x512_000_01020 Facts₀.h_S_)
    Facts₀.bitsLt_bf16_f32

/-- Entry (p, r) of the first factor: ∑_i input(p, i) · V(i, r) for r < 410, else 0. -/
theorem tPad_apply (x : FVec Ideal S1024x4096 .f32) (v : FVec Ideal S4096x410 .f32) (p : Fin 1024) (r : Fin 512) :
    tPad x v (ix2 p r)
      = if h : r.val < 410 then ∑ i : Fin 4096, x (ix2 p i) * v (ix2 i ⟨r.val, h⟩) else 0 := by
  unfold tPad
  by_cases hr : r.val < 410
  · rw [dif_pos hr]
    refine (padCols_inside (a := 1024) _ _ Facts₀.pads_S1024x410_S1024x512_000_01020 Facts₀.h_S_ p r hr).trans ?_
    exact PlainDot.dotGeneral_apply (M := 1024) (K := 4096) (N := 410) none _ x v p ⟨r.val, hr⟩
  · rw [dif_neg hr]
    exact (padCols_outside (a := 1024) _ _ Facts₀.pads_S1024x410_S1024x512_000_01020 Facts₀.h_S_ p r hr).trans
      (padValue _)

/-- Entry (o, r) of the second factor: U(o, r) · σ_r for r < 410, else 0. -/
theorem usPad_apply (u : FVec Ideal S4096x410 .f32) (s : FVec Ideal S410 .f32) (o : Fin 4096) (r : Fin 512) :
    usPad u s (ix2 o r) = if h : r.val < 410 then u (ix2 o ⟨r.val, h⟩) * s (ix1 ⟨r.val, h⟩) else 0 := by
  unfold usPad
  by_cases hr : r.val < 410
  · rw [dif_pos hr]
    refine (padCols_inside (a := 4096) _ _ Facts₀.pads_S4096x410_S4096x512_000_01020 Facts₀.h_S_ o r hr).trans ?_
    refine congrArg (u (ix2 o ⟨r.val, hr⟩) * ·) ?_
    refine (broadcastInDim_apply _ Facts₀.bcast_S1x410_S4096x410_0_1 _ (ix2 o ⟨r.val, hr⟩)
      (ix2 (0 : Fin 1) ⟨r.val, hr⟩) (fun b => match b with
        | ⟨0, _⟩ => by show 0 = if (1 : Nat) = 1 then 0 else o.val; rw [if_pos rfl]
        | ⟨1, _⟩ => by show r.val = if (410 : Nat) = 1 then 0 else r.val; rw [if_neg (by decide)])).trans ?_
    exact broadcastInDim_apply _ Facts₀.bcast_S410_S1x410_1 s (ix2 (0 : Fin 1) ⟨r.val, hr⟩) (ix1 ⟨r.val, hr⟩)
      (fun b => match b with
        | ⟨0, _⟩ => by show r.val = if (410 : Nat) = 1 then 0 else r.val; rw [if_neg (by decide)])
  · rw [dif_neg hr]
    exact (padCols_outside (a := 4096) _ _ Facts₀.pads_S4096x410_S4096x512_000_01020 Facts₀.h_S_ o r hr).trans
      (padValue _)

/-! ## The arrays at the region's entry -/

variable (m : (ℓ : Loc nD τ sig) → Buf (Elt Ideal) ℓ)

/-- Window 0's array is the input (its format changed, which is the identity here). -/
theorem entry_input (c : Dev nD) :
    (V m c main_v8 : S1024x4096.Idx → EReal) = m ((c : Thread nD τ).loc main_arg0) := by
  dsimp only [V]
  simp only [hostOps0, hostOps0_1, hostOps0_2, hostOps0_3, hostOps0_4, List.flatten_cons, List.flatten_nil,
    List.append_nil, List.cons_append, List.nil_append]
  after_results
  rfl

/-- Window 1's array is the weight. -/
theorem entry_weight (c : Dev nD) :
    (V m c main_v9 : S4096x4096.Idx → EReal) = m ((c : Thread nD τ).loc main_arg4) := by
  dsimp only [V]
  simp only [hostOps0, hostOps0_1, hostOps0_2, hostOps0_3, hostOps0_4, List.flatten_cons, List.flatten_nil,
    List.append_nil, List.cons_append, List.nil_append]
  after_results
  rfl

/-- Window 2's array is the padded input · V. -/
theorem entry_t (c : Dev nD) :
    (V m c main_v2 : S1024x512.Idx → EReal)
      = tPad (m ((c : Thread nD τ).loc main_arg0)) (m ((c : Thread nD τ).loc main_arg3)) := by
  dsimp only [V]
  simp only [hostOps0, hostOps0_1, hostOps0_2, hostOps0_3, hostOps0_4, List.flatten_cons, List.flatten_nil,
    List.append_nil, List.cons_append, List.nil_append]
  after_results
  rfl

/-- Window 3's array is the padded U · σ. -/
theorem entry_us (c : Dev nD) :
    (V m c main_v7 : S4096x512.Idx → EReal)
      = usPad (m ((c : Thread nD τ).loc main_arg1)) (m ((c : Thread nD τ).loc main_arg2)) := by
  dsimp only [V]
  simp only [hostOps0, hostOps0_1, hostOps0_2, hostOps0_3, hostOps0_4, List.flatten_cons, List.flatten_nil,
    List.append_nil, List.cons_append, List.nil_append]
  after_results
  rfl

end Cert.KernelIdeal.Entry

end
-- ==== Proof.LibTileSum.lean ====
/-
  A sum over N = T·W consecutive positions, taken tile by tile.

  The positions 0 … N−1 split into T tiles of W consecutive positions each; position w of tile k is W·k + w.
  In any commutative monoid the sum over all positions is the sum over the tiles of each tile's sum. A running
  total that starts from a value z and adds one tile's sum per step therefore ends, after all T steps, at z plus
  the whole sum. Tile numbers are also taken as plain naturals (the position then wraps around past the last
  tile, where it is never used), so that a running total can be stated over an initial segment of the naturals.
-/
import Idealize.ShloMosaic.Lib.ValueIdx

open scoped BigOperators

namespace Idealize.ShloMosaic.TileSum

/-- Position `w` of tile `k` among `N = T·W` positions. -/
def pos {T W N : ℕ} (hN : T * W = N) (k : Fin T) (w : Fin W) : Fin N :=
  ⟨W * k.val + w.val, by
    have hk := k.isLt
    have hw := w.isLt
    calc W * k.val + w.val < W * k.val + W := by omega
      _ = W * (k.val + 1) := by ring
      _ ≤ W * T := Nat.mul_le_mul_left _ hk
      _ = N := by rw [Nat.mul_comm]; exact hN⟩

/-- The sum over all positions is the sum over the tiles of each tile's sum. -/
theorem sum_tiles {M : Type*} [AddCommMonoid M] {T W N : ℕ} (hN : T * W = N) (g : Fin N → M) :
    ∑ f : Fin N, g f = ∑ k : Fin T, ∑ w : Fin W, g (pos hN k w) := by
  subst hN
  rw [← Equiv.sum_comp finProdFinEquiv g, Fintype.sum_prod_type]
  refine Finset.sum_congr rfl fun k _ => Finset.sum_congr rfl fun w _ => congrArg g (Fin.ext ?_)
  show w.val + W * k.val = W * k.val + w.val
  exact Nat.add_comm _ _

/-- Position `w` of the tile numbered `j`, for any natural `j`. -/
def posN {W N : ℕ} (hpos : 0 < N) (j : ℕ) (w : Fin W) : Fin N :=
  ⟨(W * j + w.val) % N, Nat.mod_lt _ hpos⟩

/-- For a tile number below `T` it is that tile's position. -/
theorem posN_eq {T W N : ℕ} (hN : T * W = N) (hpos : 0 < N) (k : Fin T) (w : Fin W) :
    posN hpos k.val w = pos hN k w :=
  Fin.ext (Nat.mod_eq_of_lt (pos hN k w).isLt)

/-- Its value, for a tile number below `T`. -/
theorem posN_val {T W N : ℕ} (hN : T * W = N) (hpos : 0 < N) (j : ℕ) (hj : j < T) (w : Fin W) :
    (posN hpos j w : Fin N).val = W * j + w.val :=
  congrArg Fin.val (posN_eq hN hpos ⟨j, hj⟩ w)

/-- The tiles numbered below `T`, summed, give the whole sum. -/
theorem sum_range_tiles {M : Type*} [AddCommMonoid M] {T W N : ℕ} (hN : T * W = N) (hpos : 0 < N) (g : Fin N → M) :
    ∑ j ∈ Finset.range T, ∑ w : Fin W, g (posN hpos j w) = ∑ f : Fin N, g f := by
  rw [Finset.sum_range, sum_tiles hN g]
  exact Finset.sum_congr rfl fun k _ => Finset.sum_congr rfl fun w _ => congrArg g (posN_eq hN hpos k w)

/-- A running total: what is there after the steps below `n`, plus step `n`'s addend, is what is there after the
    steps below `n + 1`. -/
theorem run_succ {M : Type*} [AddCommMonoid M] (z : M) (a : ℕ → M) (n : ℕ) :
    (z + ∑ j ∈ Finset.range n, a j) + a n = z + ∑ j ∈ Finset.range (n + 1), a j := by
  rw [Finset.sum_range_succ, add_assoc]

/-- A running total after its first step. -/
theorem run_one {M : Type*} [AddCommMonoid M] (z : M) (a : ℕ → M) :
    z + a 0 = z + ∑ j ∈ Finset.range 1, a j := by
  rw [Finset.sum_range_one]

end Idealize.ShloMosaic.TileSum
-- ==== Proof.LibRealSums.lean ====
/-
  Real numbers inside the extended reals: finite sums, closure of "is a real number" under the
  arithmetic a normalisation layer uses, and the identity between the two forms of a variance.

  An extended real is "a real" when it is the image of some real number. Sums, differences, products, maxima,
  finite sums, quotients by a nonzero real and reciprocal square roots of positive reals keep that property,
  and on such values every operation is the image of the operation on real numbers. The variance law

      (∑ z²)/c − ((∑ z)/c)²  =  (∑ (z − (∑ z)/c)²)/c          (c the number of terms)

  holds for real numbers; its right-hand side is a mean of squares, so it is nonnegative and clamping the
  left-hand side at zero changes nothing. Carried to the extended reals it holds for columns of real entries.
-/
import Idealize.ShloMosaic.PureOps.Ideal
import Mathlib.Tactic

noncomputable section

namespace Cert.RealSums

open Idealize.ShloMosaic

/-- A finite sum of real numbers, taken in the extended reals, is the image of the real sum. -/
theorem coe_finset_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The larger of two real numbers, taken in the extended reals, is the image of the real maximum. -/
theorem coe_max (r s : ℝ) : max (r : EReal) (s : EReal) = ((max r s : ℝ) : EReal) := by
  rcases le_total r s with h | h
  · rw [max_eq_right h, max_eq_right (EReal.coe_le_coe_iff.mpr h)]
  · rw [max_eq_left h, max_eq_left (EReal.coe_le_coe_iff.mpr h)]

/-- The sum of two reals is a real. -/
theorem isReal_add {a b : EReal} (ha : ∃ r : ℝ, a = (r : EReal)) (hb : ∃ r : ℝ, b = (r : EReal)) :
    ∃ r : ℝ, a + b = (r : EReal) := by
  obtain ⟨r, rfl⟩ := ha; obtain ⟨s, rfl⟩ := hb; exact ⟨r + s, (EReal.coe_add r s).symm⟩

/-- The difference of two reals is a real. -/
theorem isReal_sub {a b : EReal} (ha : ∃ r : ℝ, a = (r : EReal)) (hb : ∃ r : ℝ, b = (r : EReal)) :
    ∃ r : ℝ, a - b = (r : EReal) := by
  obtain ⟨r, rfl⟩ := ha; obtain ⟨s, rfl⟩ := hb; exact ⟨r - s, (EReal.coe_sub r s).symm⟩

/-- The product of two reals is a real. -/
theorem isReal_mul {a b : EReal} (ha : ∃ r : ℝ, a = (r : EReal)) (hb : ∃ r : ℝ, b = (r : EReal)) :
    ∃ r : ℝ, a * b = (r : EReal) := by
  obtain ⟨r, rfl⟩ := ha; obtain ⟨s, rfl⟩ := hb; exact ⟨r * s, (EReal.coe_mul r s).symm⟩

/-- The larger of two reals is a real. -/
theorem isReal_max {a b : EReal} (ha : ∃ r : ℝ, a = (r : EReal)) (hb : ∃ r : ℝ, b = (r : EReal)) :
    ∃ r : ℝ, max a b = (r : EReal) := by
  obtain ⟨r, rfl⟩ := ha; obtain ⟨s, rfl⟩ := hb; exact ⟨max r s, coe_max r s⟩

/-- Zero is a real. -/
theorem isReal_zero : ∃ r : ℝ, (0 : EReal) = (r : EReal) := ⟨0, EReal.coe_zero.symm⟩

/-- A finite sum of reals is a real. -/
theorem isReal_sum {ι : Type*} (s : Finset ι) {f : ι → EReal} (hf : ∀ i, ∃ r : ℝ, f i = (r : EReal)) :
    ∃ r : ℝ, ∑ i ∈ s, f i = (r : EReal) := by
  choose g hg using hf
  exact ⟨∑ i ∈ s, g i, by rw [← coe_finset_sum]; exact Finset.sum_congr rfl (fun i _ => hg i)⟩

/-- The quotient of a real by a nonzero real is a real: the product with the reciprocal. -/
theorem div_coe_coe (r : ℝ) {c : ℝ} (hc : c ≠ 0) : Ideal.div (r : EReal) (c : EReal) = ((r / c : ℝ) : EReal) := by
  rw [Ideal.div_coe hc, ← EReal.coe_mul, mul_one_div]

/-- The quotient of a real by a nonzero real is a real. -/
theorem isReal_div {a : EReal} {c : ℝ} (ha : ∃ r : ℝ, a = (r : EReal)) (hc : c ≠ 0) :
    ∃ r : ℝ, Ideal.div a (c : EReal) = (r : EReal) := by
  obtain ⟨r, rfl⟩ := ha; exact ⟨r / c, div_coe_coe r hc⟩

/-- The reciprocal square root of a positive real is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- The reciprocal square root of a positive real is a real. -/
theorem isReal_rsqrt {a : EReal} (ha : ∃ r : ℝ, 0 < r ∧ a = (r : EReal)) : ∃ s : ℝ, Ideal.rsqrt a = (s : EReal) := by
  obtain ⟨r, hr, rfl⟩ := ha; exact ⟨(Real.sqrt r)⁻¹, rsqrt_coe_pos hr⟩

/-- The variance law on real numbers: with `c` the number of terms, the mean of the squares minus the square of
    the mean is the mean of the squared deviations from the mean. -/
theorem real_var_law {ι : Type*} [Fintype ι] (z : ι → ℝ) (c : ℝ) (hc : (Fintype.card ι : ℝ) = c) (hc0 : c ≠ 0) :
    (∑ i, z i * z i) / c - (∑ i, z i) / c * ((∑ i, z i) / c)
      = (∑ i, (z i - (∑ i, z i) / c) * (z i - (∑ i, z i) / c)) / c := by
  set μ : ℝ := (∑ i, z i) / c with hμ
  have hs : ∑ i, z i = c * μ := by rw [hμ]; field_simp
  have hdev : ∑ i, (z i - μ) * (z i - μ) = ∑ i, z i * z i - 2 * μ * ∑ i, z i + c * (μ * μ) := by
    have h : ∀ i, (z i - μ) * (z i - μ) = z i * z i - 2 * μ * z i + μ * μ := fun i => by ring
    simp only [h, Finset.sum_add_distrib, Finset.sum_sub_distrib, ← Finset.mul_sum, Finset.sum_const,
      Finset.card_univ, nsmul_eq_mul, hc]
    ring
  rw [hdev, hs]
  field_simp
  ring

/-- The mean of the squared deviations of real numbers is nonnegative (`c` positive). -/
theorem real_var_nonneg {ι : Type*} [Fintype ι] (z : ι → ℝ) (m c : ℝ) (hc : 0 < c) :
    0 ≤ (∑ i, (z i - m) * (z i - m)) / c :=
  div_nonneg (Finset.sum_nonneg (fun i _ => mul_self_nonneg (z i - m))) hc.le

/-- The variance law on the extended reals, for real entries: the mean of the squares minus the square of the
    mean, clamped at zero, is the mean of the squared deviations from the mean. `c` is the number of terms. -/
theorem var_law {ι : Type*} [Fintype ι] (z : ι → EReal) (hz : ∀ i, ∃ r : ℝ, z i = (r : EReal))
    (c : ℝ) (hc : (Fintype.card ι : ℝ) = c) (hpos : 0 < c) :
    max (Ideal.div (∑ i, z i * z i) (c : EReal)
          - Ideal.div (∑ i, z i) (c : EReal) * Ideal.div (∑ i, z i) (c : EReal)) 0
      = Ideal.div (∑ i, (z i - Ideal.div (∑ i, z i) (c : EReal)) * (z i - Ideal.div (∑ i, z i) (c : EReal)))
          (c : EReal) := by
  choose w hw using hz
  obtain rfl : z = fun i => (w i : EReal) := funext hw
  have hc0 : c ≠ 0 := hpos.ne'
  simp only [← EReal.coe_mul, coe_finset_sum, div_coe_coe _ hc0, ← EReal.coe_sub]
  rw [← EReal.coe_zero, coe_max, real_var_law w c hc hc0, max_eq_left (real_var_nonneg w _ c hpos)]

/-- The mean of the squared deviations of real entries is a nonnegative real. -/
theorem var_isReal_nonneg {ι : Type*} [Fintype ι] (z : ι → EReal) (hz : ∀ i, ∃ r : ℝ, z i = (r : EReal))
    (c : ℝ) (hpos : 0 < c) :
    ∃ v : ℝ, 0 ≤ v ∧
      Ideal.div (∑ i, (z i - Ideal.div (∑ i, z i) (c : EReal)) * (z i - Ideal.div (∑ i, z i) (c : EReal)))
          (c : EReal) = (v : EReal) := by
  choose w hw using hz
  obtain rfl : z = fun i => (w i : EReal) := funext hw
  have hc0 : c ≠ 0 := hpos.ne'
  simp only [← EReal.coe_mul, coe_finset_sum, div_coe_coe _ hc0, ← EReal.coe_sub]
  exact ⟨_, real_var_nonneg w _ c hpos, rfl⟩

/-- Regrouping a sum by tiles. The index range `T * B` is cut into `T` tiles of `B` consecutive terms; a second
    family `g` over `T * R` indices (`T` groups of `R`) carries, at the first index of group `t`, the sum of
    tile `t`, and zero elsewhere. Then `g` and `f` have the same total: addition on the extended reals is
    commutative and associative, so no finiteness is needed. -/
theorem sum_tilePartials_of (T B R : ℕ) (hR : 0 < R) (f : Fin (T * B) → EReal) (g : Fin (T * R) → EReal)
    (hb : ∀ (r : Fin (T * R)) (p : Fin B), B * (r.val / R) + p.val < T * B)
    (hg : ∀ r : Fin (T * R), g r
      = if r.val % R = 0 then ∑ p : Fin B, f ⟨B * (r.val / R) + p.val, hb r p⟩ else 0) :
    ∑ r, g r = ∑ i, f i := by
  classical
  rw [← (finProdFinEquiv : Fin T × Fin R ≃ Fin (T * R)).sum_comp g,
    ← (finProdFinEquiv : Fin T × Fin B ≃ Fin (T * B)).sum_comp f, Fintype.sum_prod_type, Fintype.sum_prod_type]
  refine Finset.sum_congr rfl (fun t _ => ?_)
  rw [Finset.sum_eq_single (⟨0, hR⟩ : Fin R)]
  · rw [hg]
    have h0 : (finProdFinEquiv (t, (⟨0, hR⟩ : Fin R))).val = R * t := by
      rw [finProdFinEquiv_apply_val]; simp
    rw [if_pos (by rw [h0]; exact Nat.mul_mod_right R t)]
    refine Finset.sum_congr rfl (fun p _ => ?_)
    congr 1
    apply Fin.ext
    simp only [finProdFinEquiv_apply_val]
    rw [Nat.zero_add, Nat.mul_div_cancel_left _ hR, Nat.add_comm]
  · intro k _ hk
    rw [hg, if_neg]
    simp only [finProdFinEquiv_apply_val]
    rw [Nat.add_mul_mod_self_left, Nat.mod_eq_of_lt k.isLt]
    intro h
    exact hk (Fin.ext h)
  · intro h
    exact absurd (Finset.mem_univ _) h

/-- The regrouping for 100000 terms in 20 tiles of 5000, the partial sums sitting at every eighth of 160 indices. -/
theorem sum_tilePartials (f : Fin 100000 → EReal) (g : Fin 160 → EReal)
    (hg : ∀ r : Fin 160, g r = if r.val % 8 = 0 then ∑ p : Fin 5000, f ⟨5000 * (r.val / 8) + p.val, by have := r.isLt; have := p.isLt; omega⟩ else 0) :
    ∑ r, g r = ∑ i, f i :=
  sum_tilePartials_of 20 5000 8 (by norm_num) f g (fun r p => by have := r.isLt; have := p.isLt; omega) hg

end Cert.RealSums

end
-- ==== Proof.TiledProduct.lean ====
/-
  A linear layer whose weight carries a low-rank correction, computed two ways, over the extended reals.

  Given an input x (1024×4096), factors u, v (4096×410), scales s (410) and a weight w (4096×4096):

    the direct form     out(p, o) = ∑_i x(p, i) · ( w(o, i) + ∑_r (u(o, r) · s_r) · v(i, r) ),

    the factored form   out(p, o) = ∑_{r < 512} t(p, r) · us(o, r)  +  ∑_{k < 8} ∑_{l < 512} x(p, 512k + l) · w(o, 512k + l),

  where t(p, r) = ∑_i x(p, i) · v(i, r) and us(o, r) = u(o, r) · s_r for r < 410, and both are 0 for 410 ≤ r < 512.
  The padded columns contribute 0 · 0 = 0; the eight tiles of 512 make up the sum over all 4096 positions; and for
  real entries the product distributes over the inner sum and the two finite sums may be exchanged. The last step is
  where finiteness is needed: on the extended reals multiplication does not distribute over sums that mix +∞ and −∞.
-/
import proofs.«111800_j77240691851703_2_alg».proof.Proof.LibTileSum
import proofs.«111800_j77240691851703_2_alg».proof.Proof.LibRealSums
import Idealize.ShloMosaic.Lib.ValueIdx
import Mathlib.Tactic

set_option maxRecDepth 16384

noncomputable section

open Idealize.ShloMosaic Idealize.ShloMosaic.ValueIdx
open scoped BigOperators

namespace Cert.SvdLinear

/-- An a×b matrix of extended reals, indexed as the programs index it. -/
abbrev Mat (a b : ℕ) : Type := (⟨2, ![a, b]⟩ : Shape).Idx → EReal
/-- A vector of extended reals. -/
abbrev Vect (a : ℕ) : Type := (⟨1, ![a]⟩ : Shape).Idx → EReal

/-- Contraction position `l` of tile `k`: 512·k + l (wrapped past the last tile, where it is never used). -/
abbrev colAt (k : ℕ) (l : Fin 512) : Fin 4096 := TileSum.posN (W := 512) (N := 4096) (by norm_num) k l

/-- Output column `q` of column tile `j`: 1024·j + q (wrapped past the last tile, where it is never used). -/
def rowAt (j : ℕ) (q : Fin 1024) : Fin 4096 := ⟨(1024 * j + q.val) % 4096, Nat.mod_lt _ (by norm_num)⟩

section
variable (x : Mat 1024 4096) (u : Mat 4096 410) (s : Vect 410) (v : Mat 4096 410) (w : Mat 4096 4096)

/-- Column `r` of the padded first factor at row `p`. -/
def tCol (p : Fin 1024) (r : ℕ) : EReal :=
  if h : r < 410 then ∑ i : Fin 4096, x (ix2 p i) * v (ix2 i ⟨r, h⟩) else 0

/-- Column `r` of the padded second factor at row `o`. -/
def usCol (o : Fin 4096) (r : ℕ) : EReal :=
  if h : r < 410 then u (ix2 o ⟨r, h⟩) * s (ix1 ⟨r, h⟩) else 0

/-- The low-rank term over the 512 padded columns. -/
def lowRank (p : Fin 1024) (o : Fin 4096) : EReal := ∑ r : Fin 512, tCol x v p r.val * usCol u s o r.val

/-- One tile of 512 contraction positions of the weight term. -/
def tileTerm (k : ℕ) (p : Fin 1024) (o : Fin 4096) : EReal :=
  ∑ l : Fin 512, x (ix2 p (colAt k l)) * w (ix2 o (colAt k l))

/-- The factored form at (p, o). -/
def factoredAt (p : Fin 1024) (o : Fin 4096) : EReal :=
  lowRank x u s v p o + ∑ k ∈ Finset.range 8, tileTerm x w k p o

/-- The direct form at (p, o). -/
def directAt (p : Fin 1024) (o : Fin 4096) : EReal :=
  ∑ i : Fin 4096, x (ix2 p i) * (w (ix2 o i) + ∑ r : Fin 410, (u (ix2 o r) * s (ix1 r)) * v (ix2 i r))

/-- The factored form. -/
def factored : Mat 1024 4096 := fun j => factoredAt x u s v w (j 0) (j 1)

/-- The direct form. -/
def direct : Mat 1024 4096 := fun j => directAt x u s v w (j 0) (j 1)

/-- The padded columns contribute nothing: the low-rank term is a sum over the 410 true columns. -/
theorem lowRank_eq (p : Fin 1024) (o : Fin 4096) :
    lowRank x u s v p o
      = ∑ r : Fin 410, (∑ i : Fin 4096, x (ix2 p i) * v (ix2 i r)) * (u (ix2 o r) * s (ix1 r)) := by
  unfold lowRank
  rw [Fin.sum_univ_eq_sum_range (fun r => tCol x v p r * usCol u s o r) 512,
    ← Finset.sum_range_add_sum_Ico _ (show 410 ≤ 512 by norm_num)]
  have hz : ∑ r ∈ Finset.Ico 410 512, tCol x v p r * usCol u s o r = 0 :=
    Finset.sum_eq_zero fun r hr => by
      have h1 : ¬r < 410 := by have := (Finset.mem_Ico.mp hr).1; omega
      unfold tCol usCol
      rw [dif_neg h1, dif_neg h1, zero_mul]
  rw [hz, add_zero, ← Fin.sum_univ_eq_sum_range (fun r => tCol x v p r * usCol u s o r) 410]
  refine Finset.sum_congr rfl fun r _ => ?_
  unfold tCol usCol
  rw [dif_pos r.isLt, dif_pos r.isLt]

/-- The eight tiles make up the whole contraction. -/
theorem tiles_eq (p : Fin 1024) (o : Fin 4096) :
    ∑ k ∈ Finset.range 8, tileTerm x w k p o = ∑ i : Fin 4096, x (ix2 p i) * w (ix2 o i) :=
  TileSum.sum_range_tiles (T := 8) (W := 512) (N := 4096) (by norm_num) (by norm_num)
    (fun i => x (ix2 p i) * w (ix2 o i))

/-- The law over the reals: distribute the product over the inner sum and exchange the two sums. -/
theorem real_law {ι κ : Type*} [Fintype ι] [Fintype κ] (a : ι → ℝ) (b : ι → ℝ) (c : κ → ℝ) (d : ι → κ → ℝ) :
    (∑ r, (∑ i, a i * d i r) * c r) + ∑ i, a i * b i = ∑ i, a i * (b i + ∑ r, c r * d i r) := by
  simp only [mul_add, Finset.sum_add_distrib, Finset.mul_sum, Finset.sum_mul]
  rw [add_comm, Finset.sum_comm]
  refine congrArg _ (Finset.sum_congr rfl fun i _ => Finset.sum_congr rfl fun r _ => ?_)
  ring

/-- For real entries the factored form is the direct form, entry by entry. -/
theorem factoredAt_eq_directAt (hx : ∀ i, ∃ r : ℝ, x i = (r : EReal)) (hu : ∀ i, ∃ r : ℝ, u i = (r : EReal))
    (hs : ∀ i, ∃ r : ℝ, s i = (r : EReal)) (hv : ∀ i, ∃ r : ℝ, v i = (r : EReal))
    (hw : ∀ i, ∃ r : ℝ, w i = (r : EReal))
    (p : Fin 1024) (o : Fin 4096) : factoredAt x u s v w p o = directAt x u s v w p o := by
  unfold factoredAt directAt
  rw [lowRank_eq, tiles_eq]
  choose x' hx' using hx
  choose u' hu' using hu
  choose s' hs' using hs
  choose v' hv' using hv
  choose w' hw' using hw
  obtain rfl : x = fun i => (x' i : EReal) := funext hx'
  obtain rfl : u = fun i => (u' i : EReal) := funext hu'
  obtain rfl : s = fun i => (s' i : EReal) := funext hs'
  obtain rfl : v = fun i => (v' i : EReal) := funext hv'
  obtain rfl : w = fun i => (w' i : EReal) := funext hw'
  simp only [← EReal.coe_mul, ← EReal.coe_add, Cert.RealSums.coe_finset_sum]
  exact congrArg _ (real_law (fun i => x' (ix2 p i)) (fun i => w' (ix2 o i))
    (fun r => u' (ix2 o r) * s' (ix1 r)) (fun i r => v' (ix2 i r)))

/-- For real entries the factored form is the direct form. -/
theorem factored_eq_direct (hx : ∀ i, ∃ r : ℝ, x i = (r : EReal)) (hu : ∀ i, ∃ r : ℝ, u i = (r : EReal))
    (hs : ∀ i, ∃ r : ℝ, s i = (r : EReal)) (hv : ∀ i, ∃ r : ℝ, v i = (r : EReal))
    (hw : ∀ i, ∃ r : ℝ, w i = (r : EReal)) :
    factored x u s v w = direct x u s v w :=
  funext fun j => factoredAt_eq_directAt x u s v w hx hu hs hv hw (j 0) (j 1)

end

end Cert.SvdLinear

end
-- ==== Proof.Accumulation.lean ====
/-
  What the accumulator holds after each grid step, in closed form.

  Grid point t is (j, k) = (t / 8, t % 8). The block of the weight at the point is rows 1024·j … of the weight and
  columns 512·k …; the block of U·σ is rows 1024·j …; the input and input·V are read whole. So step t adds, at
  (p, q), the tile sum  ∑_l x(p, 512k + l) · w(1024j + q, 512k + l),  and the run of eight steps that starts at
  k = 0 starts from the low-rank term  ∑_r t(p, r) · us(1024j + q, r).  The accumulator after step t is therefore
  the low-rank term plus the tile sums of the steps 0 … k of its run: a fold that starts at a value and adds one
  addend per step is that value plus the sum of the addends.
-/
import proofs.«111800_j77240691851703_2_alg».proof.Proof.Gen.KernelIdeal.Value
import proofs.«111800_j77240691851703_2_alg».proof.Proof.PayloadIdx
import proofs.«111800_j77240691851703_2_alg».proof.Proof.EntryArrays
import proofs.«111800_j77240691851703_2_alg».proof.Proof.TiledProduct

set_option maxRecDepth 16384

noncomputable section

open Idealize.ShloMosaic Idealize.ShloMosaic.TcCoe Idealize.SL.Sem
open Idealize.ShloMosaic.ValueIdx Idealize.ShloMosaic.Pipeline
open scoped BigOperators

namespace Cert.KernelIdeal.Acc

open Cert.KernelIdeal Cert.KernelIdeal.Gen Cert.SvdLinear

variable (m : (ℓ : Loc nD τ sig) → Buf (Elt Ideal) ℓ)

/-- The five argument arrays as matrices of extended reals. -/
abbrev argX (c : Dev nD) : Mat 1024 4096 := m ((c : Thread nD τ).loc main_arg0)
abbrev argU (c : Dev nD) : Mat 4096 410 := m ((c : Thread nD τ).loc main_arg1)
abbrev argS (c : Dev nD) : Vect 410 := m ((c : Thread nD τ).loc main_arg2)
abbrev argV (c : Dev nD) : Mat 4096 410 := m ((c : Thread nD τ).loc main_arg3)
abbrev argW (c : Dev nD) : Mat 4096 4096 := m ((c : Thread nD τ).loc main_arg4)

/-- The printed index maps and the second grid coordinate, decided once over the 32 grid points. -/
theorem index_facts : ∀ t : Fin cfg0.N,
    win0_0.index t (0 : Fin 2) = 0 ∧ win0_0.index t (1 : Fin 2) = 0
    ∧ win0_1.index t (0 : Fin 2) = t.val / 8 ∧ win0_1.index t (1 : Fin 2) = t.val % 8
    ∧ win0_2.index t (0 : Fin 2) = 0 ∧ win0_2.index t (1 : Fin 2) = 0
    ∧ win0_3.index t (0 : Fin 2) = t.val / 8 ∧ win0_3.index t (1 : Fin 2) = 0
    ∧ win0_4.index t (0 : Fin 2) = 0 ∧ win0_4.index t (1 : Fin 2) = t.val / 8
    ∧ (grid0.coords t 1).val = t.val % 8 :=
  (by decide +kernel : ∀ t : Fin grid0.N, _)

/-! ## The four input blocks at a point, read at an index -/

/-- The input is read whole. -/
theorem block_input (c : Dev nD) (t : Fin cfg0.N) (p : Fin 1024) (i : Fin 4096) :
    (iblk m c 0 t : S1024x4096.Idx → EReal) (ix2 p i) = argX m c (ix2 p i) := by
  obtain ⟨e0, e1, -⟩ := index_facts t
  refine Eq.trans ?_ (congrFun (Entry.entry_input m c) (ix2 p i))
  show (V m c main_v8 : S1024x4096.Idx → EReal) (((cfg0.win 0).blk t).view.emb (ix2 p i)) = _
  refine congrArg _ (funext fun a => Fin.ext ?_)
  match a with
  | ⟨0, _⟩ => show win0_0.index t (0 : Fin 2) * 1024 + 1 * p.val = p.val; rw [e0]; omega
  | ⟨1, _⟩ => show win0_0.index t (1 : Fin 2) * 4096 + 1 * i.val = i.val; rw [e1]; omega

/-- The weight block (j, k): rows 1024·j + q, columns 512·k + l. -/
theorem block_weight (c : Dev nD) (t : Fin cfg0.N) (q : Fin 1024) (l : Fin 512) :
    (iblk m c 1 t : S1024x512.Idx → EReal) (ix2 q l)
      = argW m c (ix2 (rowAt (t.val / 8) q) (colAt (t.val % 8) l)) := by
  obtain ⟨-, -, e0, e1, -⟩ := index_facts t
  have hN : t.val < 32 := lt_of_lt_of_eq t.isLt (show cfg0.N = 32 from N_0)
  refine Eq.trans ?_ (congrFun (Entry.entry_weight m c) _)
  show (V m c main_v9 : S4096x4096.Idx → EReal) (((cfg0.win 1).blk t).view.emb (ix2 q l)) = _
  refine congrArg _ (funext fun a => Fin.ext ?_)
  match a with
  | ⟨0, _⟩ =>
    show win0_1.index t (0 : Fin 2) * 1024 + 1 * q.val = (1024 * (t.val / 8) + q.val) % 4096
    rw [e0]; have := q.isLt; omega
  | ⟨1, _⟩ =>
    show win0_1.index t (1 : Fin 2) * 512 + 1 * l.val = (512 * (t.val % 8) + l.val) % 4096
    rw [e1]; have := l.isLt; omega

/-- The padded input·V is read whole. -/
theorem block_t (c : Dev nD) (t : Fin cfg0.N) (p : Fin 1024) (r : Fin 512) :
    (iblk m c 2 t : S1024x512.Idx → EReal) (ix2 p r) = Entry.tPad (argX m c) (argV m c) (ix2 p r) := by
  obtain ⟨-, -, -, -, e0, e1, -⟩ := index_facts t
  refine Eq.trans ?_ (congrFun (Entry.entry_t m c) (ix2 p r))
  show (V m c main_v2 : S1024x512.Idx → EReal) (((cfg0.win 2).blk t).view.emb (ix2 p r)) = _
  refine congrArg _ (funext fun a => Fin.ext ?_)
  match a with
  | ⟨0, _⟩ => show win0_2.index t (0 : Fin 2) * 1024 + 1 * p.val = p.val; rw [e0]; omega
  | ⟨1, _⟩ => show win0_2.index t (1 : Fin 2) * 512 + 1 * r.val = r.val; rw [e1]; omega

/-- The block of the padded U·σ: rows 1024·j + q. -/
theorem block_us (c : Dev nD) (t : Fin cfg0.N) (q : Fin 1024) (r : Fin 512) :
    (iblk m c 3 t : S1024x512.Idx → EReal) (ix2 q r)
      = Entry.usPad (argU m c) (argS m c) (ix2 (rowAt (t.val / 8) q) r) := by
  obtain ⟨-, -, -, -, -, -, e0, e1, -⟩ := index_facts t
  have hN : t.val < 32 := lt_of_lt_of_eq t.isLt (show cfg0.N = 32 from N_0)
  refine Eq.trans ?_ (congrFun (Entry.entry_us m c) _)
  show (V m c main_v7 : S4096x512.Idx → EReal) (((cfg0.win 3).blk t).view.emb (ix2 q r)) = _
  refine congrArg _ (funext fun a => Fin.ext ?_)
  match a with
  | ⟨0, _⟩ =>
    show win0_3.index t (0 : Fin 2) * 1024 + 1 * q.val = (1024 * (t.val / 8) + q.val) % 4096
    rw [e0]; have := q.isLt; omega
  | ⟨1, _⟩ => show win0_3.index t (1 : Fin 2) * 512 + 1 * r.val = r.val; rw [e1]; omega

/-! ## One step's two terms -/

/-- The step's addend at (p, q) is tile k of the weight term at (p, 1024·j + q). -/
theorem step_addend (c : Dev nD) (t : Fin cfg0.N) (p q : Fin 1024) :
    ∑ l : Fin 512, Steps.inCols (F := Ideal) (grid0.coords t) (iblk m c 0 t) (ix2 p l)
        * (iblk m c 1 t : S1024x512.Idx → EReal) (ix2 q l)
      = tileTerm (argX m c) (argW m c) (t.val % 8) p (rowAt (t.val / 8) q) := by
  unfold tileTerm
  refine Finset.sum_congr rfl fun l _ => ?_
  have hcol : (colAt (t.val % 8) l).val = 512 * (grid0.coords t 1).val + l.val := by
    rw [(index_facts t).2.2.2.2.2.2.2.2.2.2]
    show (512 * (t.val % 8) + l.val) % 4096 = _
    have := l.isLt; omega
  rw [Steps.inCols_apply (grid0.coords t) (iblk m c 0 t) p l (colAt (t.val % 8) l) hcol, block_input, block_weight]

/-- The low-rank product of the point's blocks at (p, q) is the low-rank term at (p, 1024·j + q). -/
theorem lowRank_block (c : Dev nD) (t : Fin cfg0.N) (p q : Fin 1024) :
    k0_pay1 (F := Ideal) (iblk m c 2 t) (iblk m c 3 t) (ix2 p q)
      = lowRank (argX m c) (argU m c) (argS m c) (argV m c) p (rowAt (t.val / 8) q) := by
  refine (Steps.lowRank_apply (iblk m c 2 t) (iblk m c 3 t) p q).trans ?_
  unfold lowRank
  refine Finset.sum_congr rfl fun r _ => ?_
  rw [block_t, block_us, Entry.tPad_apply, Entry.usPad_apply]
  rfl

/-! ## The fold -/

/-- The first step of a run leaves the low-rank term plus the first tile. -/
theorem fold_start (c : Dev nD) (b : ℕ) (hb : b < cfg0.N) (h0 : b % 8 = 0) (p q : Fin 1024) :
    Value.scAt0_0 m c b hb (VS0_0.read (Elt Ideal) VS0_0.junk) (ix2 p q)
      = lowRank (argX m c) (argU m c) (argS m c) (argV m c) p (rowAt (b / 8) q) + tileTerm (argX m c) (argW m c) (b % 8) p (rowAt (b / 8) q) := by
  unfold Value.scAt0_0
  rw [dif_pos h0, dif_neg (by omega : ¬b % 8 = 7)]
  refine (congrFun (Steps.acc_first (F := Ideal) c (grid0.coords (⟨b, hb⟩ : Fin cfg0.N)) (ms0_0 (⟨b, hb⟩ : Fin cfg0.N)) (hs0_0 (⟨b, hb⟩ : Fin cfg0.N)) (ms0_1 (⟨b, hb⟩ : Fin cfg0.N)) (hs0_1 (⟨b, hb⟩ : Fin cfg0.N)) (ms0_2 (⟨b, hb⟩ : Fin cfg0.N)) (hs0_2 (⟨b, hb⟩ : Fin cfg0.N)) (ms0_3 (⟨b, hb⟩ : Fin cfg0.N)) (hs0_3 (⟨b, hb⟩ : Fin cfg0.N)) (ms0_4 (⟨b, hb⟩ : Fin cfg0.N)) (hs0_4 (⟨b, hb⟩ : Fin cfg0.N)) scM0_0 (Memref.isWhole_whole _) _ _
    (iblk m c 0 (⟨b, hb⟩ : Fin cfg0.N)) (iblk m c 1 (⟨b, hb⟩ : Fin cfg0.N)) (iblk m c 2 (⟨b, hb⟩ : Fin cfg0.N)) (iblk m c 3 (⟨b, hb⟩ : Fin cfg0.N))) (ix2 p q)).trans ?_
  refine (Steps.accStep_apply _ _ _ p q).trans ?_
  rw [lowRank_block m c ⟨b, hb⟩ p q, step_addend m c ⟨b, hb⟩ p q]

/-- Every later step of the run adds its tile to what the accumulator held. -/
theorem fold_step (c : Dev nD) (n : ℕ) (hn : n < cfg0.N) (h0 : ¬n % 8 = 0) (acc : Vec Ideal S1024x1024 .f32)
    (p q : Fin 1024) :
    Value.scAt0_0 m c n hn acc (ix2 p q)
      = acc (ix2 p q) + tileTerm (argX m c) (argW m c) (n % 8) p (rowAt (n / 8) q) := by
  unfold Value.scAt0_0
  rw [dif_neg h0]
  by_cases h7 : n % 8 = 7
  · rw [dif_pos h7]
    refine (congrFun (Steps.acc_last (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) _ _
      (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) acc) (ix2 p q)).trans ?_
    refine (Steps.accStep_apply _ _ _ p q).trans ?_
    rw [step_addend m c ⟨n, hn⟩ p q]
  · rw [dif_neg h7]
    refine (congrFun (Steps.acc_mid (F := Ideal) c (grid0.coords (⟨n, hn⟩ : Fin cfg0.N)) (ms0_0 (⟨n, hn⟩ : Fin cfg0.N)) (hs0_0 (⟨n, hn⟩ : Fin cfg0.N)) (ms0_1 (⟨n, hn⟩ : Fin cfg0.N)) (hs0_1 (⟨n, hn⟩ : Fin cfg0.N)) (ms0_2 (⟨n, hn⟩ : Fin cfg0.N)) (hs0_2 (⟨n, hn⟩ : Fin cfg0.N)) (ms0_3 (⟨n, hn⟩ : Fin cfg0.N)) (hs0_3 (⟨n, hn⟩ : Fin cfg0.N)) (ms0_4 (⟨n, hn⟩ : Fin cfg0.N)) (hs0_4 (⟨n, hn⟩ : Fin cfg0.N)) scM0_0 (Memref.isWhole_whole _) _ _
      (iblk m c 0 (⟨n, hn⟩ : Fin cfg0.N)) (iblk m c 1 (⟨n, hn⟩ : Fin cfg0.N)) (iblk m c 2 (⟨n, hn⟩ : Fin cfg0.N)) (iblk m c 3 (⟨n, hn⟩ : Fin cfg0.N)) acc) (ix2 p q)).trans ?_
    refine (Steps.accStep_apply _ _ _ p q).trans ?_
    rw [step_addend m c ⟨n, hn⟩ p q]

/-- The accumulator after step t = (j, k), at (p, q): the low-rank term plus the tiles 0 … k, at (p, 1024·j + q). -/
theorem acc_closed (c : Dev nD) (t : Fin cfg0.N) (p q : Fin 1024) :
    (outsAt0 m c t.val t.isLt).2 (ix2 p q)
      = lowRank (argX m c) (argU m c) (argS m c) (argV m c) p (rowAt (t.val / 8) q)
        + ∑ s ∈ Finset.range (t.val % 8 + 1), tileTerm (argX m c) (argW m c) s p (rowAt (t.val / 8) q) := by
  have hN : t.val < 32 := lt_of_lt_of_eq t.isLt (show cfg0.N = 32 from N_0)
  rw [Value.soutsAt0_0_eq m c t]
  refine (Pipeline.accAt_add_apply (N := cfg0.N) (ι := S1024x1024.Idx) (β := EReal)
    (fun n h => Value.scAt0_0 m c n h (VS0_0.read (Elt Ideal) VS0_0.junk)) (Value.scAt0_0 m c)
    (fun i => lowRank (argX m c) (argU m c) (argS m c) (argV m c) (i 0) (rowAt (t.val / 8) (i 1)))
    (fun n i => tileTerm (argX m c) (argW m c) (n % 8) (i 0) (rowAt (n / 8) (i 1)))
    (8 * (t.val / 8)) 7 ?_ ?_ (t.val % 8) (by omega) _ (ix2 p q)).trans ?_
  · intro h i
    obtain ⟨p', q', rfl⟩ : ∃ (p' q' : Fin 1024), i = ix2 p' q' := ⟨i 0, i 1, eq_ix2 i⟩
    refine (fold_start m c _ h (by omega) p' q').trans ?_
    rw [show 8 * (t.val / 8) / 8 = t.val / 8 by omega]
  · intro n h acc i hlo hhi
    obtain ⟨p', q', rfl⟩ : ∃ (p' q' : Fin 1024), i = ix2 p' q' := ⟨i 0, i 1, eq_ix2 i⟩
    exact fold_step m c n h (by omega) acc p' q'
  · refine congrArg _ (Finset.sum_congr rfl fun s hs => ?_)
    have hs' : s < 8 := by have := Finset.mem_range.mp hs; omega
    show tileTerm (argX m c) (argW m c) ((8 * (t.val / 8) + s) % 8) p (rowAt ((8 * (t.val / 8) + s) / 8) q) = _
    rw [show (8 * (t.val / 8) + s) % 8 = s by omega, show (8 * (t.val / 8) + s) / 8 = t.val / 8 by omega]

end Cert.KernelIdeal.Acc

end
-- ==== Proof.KernelRun.lean ====
/-
  The kernel's result array after the run.

  Only the last step of each run of eight (k = 7) writes the output block back, and what it writes is the
  accumulator after that step: the low-rank term plus all eight tiles, at (p, 1024·j + q). Output block j is rows
  0 … 1023 and columns 1024·j … 1024·j + 1023 of the result, so the four flushing points' blocks cover the result
  array, and the array ends holding the factored form of the five arguments.
-/
import proofs.«111800_j77240691851703_2_alg».proof.Proof.Accumulation

set_option maxRecDepth 16384

noncomputable section

open Idealize.ShloMosaic Idealize.ShloMosaic.TcCoe Idealize.SL.Sem
open Idealize.ShloMosaic.ValueIdx Idealize.ShloMosaic.Pipeline
open scoped BigOperators

namespace Cert.KernelIdeal.Run

open Cert.KernelIdeal Cert.KernelIdeal.Gen Cert.SvdLinear

variable (m : (ℓ : Loc nD τ sig) → Buf (Elt Ideal) ℓ) (ρ : Dev nD → PrngReg)

/-- The result: the factored form of the argument arrays. -/
abbrev result (c : Dev nD) : Mat 1024 4096 := factored (Acc.argX m c) (Acc.argU m c) (Acc.argS m c) (Acc.argV m c) (Acc.argW m c)

/-- At the last step of a run the output block holds what the accumulator holds. -/
theorem out_eq_acc (c : Dev nD) (t : Fin cfg0.N) (h0 : ¬t.val % 8 = 0) (h7 : t.val % 8 = 7) :
    (outsAt0 m c t.val t.isLt).1 = (outsAt0 m c t.val t.isLt).2 := by
  rw [outsAt0_C m c t h0 h7]
  dsimp only
  exact (Steps.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) _).trans
    (Steps.acc_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) _ _ (iblk m c 0 t) (iblk m c 1 t) (iblk m c 2 t) (iblk m c 3 t) _).symm

/-- A flushing point writes back block j of the factored form. -/
theorem flushed_eq (c : Dev nD) (t : Fin cfg0.N) (hf : (cfg0.win 4).flush t = true) :
    (dats m 0 c).flushed 4 t = ((cfg0.win 4).blk t).view.read (Elt Ideal) (result m c) := by
  have h7 : t.val % 8 = 7 := (flush0_4 t).mp hf
  have h0 : ¬t.val % 8 = 0 := by omega
  have hN : t.val < 32 := lt_of_lt_of_eq t.isLt (show cfg0.N = 32 from N_0)
  obtain ⟨-, -, -, -, -, -, -, -, e0, e1, -⟩ := Acc.index_facts t
  rw [Value.flushed4 m c t, out_eq_acc m c t h0 h7]
  funext y
  obtain ⟨p, q, rfl⟩ : ∃ (p q : Fin 1024), y = ix2 p q := ⟨y 0, y 1, eq_ix2 y⟩
  show (outsAt0 m c t.val t.isLt).2 (ix2 p q) = result m c (((cfg0.win 4).blk t).view.emb (ix2 p q))
  have hemb : ((cfg0.win 4).blk t).view.emb (ix2 p q) = ix2 p (rowAt (t.val / 8) q) :=
    funext fun a => Fin.ext (by
      match a with
      | ⟨0, _⟩ => show win0_4.index t (0 : Fin 2) * 1024 + 1 * p.val = p.val; rw [e0]; omega
      | ⟨1, _⟩ =>
        show win0_4.index t (1 : Fin 2) * 1024 + 1 * q.val = (1024 * (t.val / 8) + q.val) % 4096
        rw [e1]; have := q.isLt; omega)
  rw [hemb, Acc.acc_closed m c t p q, h7]
  rfl

/-- An index of the result array is in point t's block iff each coordinate is in the block's range. -/
theorem mem_blk (t : Fin cfg0.N) (i : S1024x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v10).slice (win0_4.rect t)).set ↔ _
  rw [View.set_slice_whole, Rect.mem_set_unit]
  exact Iff.rfl

/-- Every index of the result is in the block of the last step of the run of its column tile. -/
theorem cover (i : S1024x4096.Idx) :
    ∃ t : Fin cfg0.N, (cfg0.win 4).flush t = true ∧ i ∈ ((cfg0.win 4).blk t).view.set := by
  have hi0 : (i 0).val < 1024 := (i 0).isLt
  have hi1 : (i 1).val < 4096 := (i 1).isLt
  have hlt : 8 * ((i 1).val / 1024) + 7 < cfg0.N := by rw [show cfg0.N = 32 from N_0]; omega
  obtain ⟨-, -, -, -, -, -, -, -, e0, e1, -⟩ := Acc.index_facts ⟨8 * ((i 1).val / 1024) + 7, hlt⟩
  refine ⟨⟨8 * ((i 1).val / 1024) + 7, hlt⟩, (flush0_4 _).mpr (by show (8 * ((i 1).val / 1024) + 7) % 8 = 7; omega), ?_⟩
  rw [mem_blk]
  intro a
  match a with
  | ⟨0, _⟩ =>
    show win0_4.index ⟨8 * ((i 1).val / 1024) + 7, hlt⟩ (0 : Fin 2) * 1024 ≤ (i 0).val
      ∧ (i 0).val < win0_4.index ⟨8 * ((i 1).val / 1024) + 7, hlt⟩ (0 : Fin 2) * 1024 + 1024
    rw [e0]; omega
  | ⟨1, _⟩ =>
    show win0_4.index ⟨8 * ((i 1).val / 1024) + 7, hlt⟩ (1 : Fin 2) * 1024 ≤ (i 1).val
      ∧ (i 1).val < win0_4.index ⟨8 * ((i 1).val / 1024) + 7, hlt⟩ (1 : Fin 2) * 1024 + 1024
    rw [e1]
    show (8 * ((i 1).val / 1024) + 7) / 8 * 1024 ≤ (i 1).val ∧ (i 1).val < (8 * ((i 1).val / 1024) + 7) / 8 * 1024 + 1024
    omega

/-- The result array after the run is the factored form. -/
theorem final (c : Dev nD) : (dats m 0 c).arrAt 4 cfg0.N = result m c :=
  (dats m 0 c).arrAt_eq_of_cover 4 (result m c) (flushed_eq m c) cover

/-- The run: the result array at the factored form, the arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Run

end
-- ==== Proof.RefValue.lean ====
/-
  The reference computes the direct form.

  The reference scales column r of U by σ_r, multiplies by the transpose of V, adds the weight, transposes, and
  multiplies the input by the result. Read at (p, o), operation by operation: the outer product is the sum over i of
  input(p, i) times the transposed merged weight at (i, o), which is the merged weight at (o, i): the weight there
  plus the sum over r of (U(o, r) · σ_r) · V(i, r).
-/
import proofs.«111800_j77240691851703_2_alg».proof.Proof.Gen.ReferenceIdeal.Read
import proofs.«111800_j77240691851703_2_alg».proof.Proof.TiledProduct

set_option maxRecDepth 16384

noncomputable section

open Idealize.ShloMosaic Idealize.ShloMosaic.TcCoe Idealize.SL.Sem
open Idealize.ShloMosaic.ValueIdx
open scoped BigOperators

namespace Cert.ReferenceIdeal.Direct

open Cert.ReferenceIdeal Cert.ReferenceIdeal.Read Cert.SvdLinear

/-- The reference's result at (p, o) is the direct form there. -/
theorem reference_at (x : Mat 1024 4096) (u : Mat 4096 410) (s : Vect 410) (v : Mat 4096 410)
    (w : Mat 4096 4096) (p : Fin 1024) (o : Fin 4096) :
    val_main_v7 (F := Ideal) x u s v w (ix2 p o) = directAt x u s v w p o := by
  have l7 : ∀ k : Fin 4096, lidx_main_v7 (ix2 p o) k = ix2 p k := fun k =>
    funext fun a => Fin.ext (by match a with | ⟨0, _⟩ => rfl | ⟨1, _⟩ => rfl)
  have r6 : ∀ k : Fin 4096, idx_main_v6 (ridx_main_v7 (ix2 p o) k) = ix2 o k := fun k =>
    funext fun a => Fin.ext (by match a with | ⟨0, _⟩ => rfl | ⟨1, _⟩ => rfl)
  have l4 : ∀ (k : Fin 4096) (r : Fin 410), lidx_main_v4 (ix2 o k) r = ix2 o r := fun k r =>
    funext fun a => Fin.ext (by match a with | ⟨0, _⟩ => rfl | ⟨1, _⟩ => rfl)
  have r3 : ∀ (k : Fin 4096) (r : Fin 410), idx_main_v3 (ridx_main_v4 (ix2 o k) r) = ix2 k r := fun k r =>
    funext fun a => Fin.ext (by match a with | ⟨0, _⟩ => rfl | ⟨1, _⟩ => rfl)
  have b0 : ∀ r : Fin 410, idx_main_v0 (idx_main_v1 (ix2 o r)) = ix1 r := fun r =>
    funext fun a => Fin.ext (by match a with | ⟨0, _⟩ => rfl)
  rw [val_main_v7_apply]
  unfold directAt
  refine Finset.sum_congr rfl fun k _ => ?_
  rw [l7 k, val_main_v6_apply, r6 k, val_main_v5_apply, val_main_v4_apply]
  refine congrArg (x (ix2 p k) * ·) (congrArg (w (ix2 o k) + ·) (Finset.sum_congr rfl fun r _ => ?_))
  rw [l4 k r, val_main_v3_apply, r3 k r, val_main_v2_apply, val_main_v1_apply, val_main_v0_apply, b0 r]
  rfl

/-- The reference's result, as a function of its five arguments, is the direct form. -/
theorem reference_eq_direct (x : Mat 1024 4096) (u : Mat 4096 410) (s : Vect 410) (v : Mat 4096 410)
    (w : Mat 4096 4096) :
    val_main_v7 (F := Ideal) x u s v w = direct x u s v w :=
  funext fun j => (congrArg (val_main_v7 (F := Ideal) x u s v w) (eq_ix2 j)).trans (reference_at x u s v w (j 0) (j 1))

end Cert.ReferenceIdeal.Direct

end
-- ==== Proof.Finite.lean ====
/-
  From the precondition to real entries.

  The precondition says, of each of the five argument arrays, that every entry's absolute value compares below the
  f32 pattern of +∞, all five conjoined by `and`. Over the extended reals |a| < +∞ excludes a = +∞ and a = −∞ (the
  absolute value of either is +∞), so a is a real number.
-/
import proofs.«111800_j77240691851703_2_alg».proof.Defs
import proofs.«111800_j77240691851703_2_alg».proof.Proof.Gen.KernelIdeal
import proofs.«111800_j77240691851703_2_alg».proof.Proof.Gen.Pre_finite_inputs
import Idealize.ShloMosaic.Lib.ReduceAll
import Idealize.ShloMosaic.Lib.Affine
import Idealize.ShloMosaic.Lib.ValueIdx

set_option maxRecDepth 16384

noncomputable section

open Idealize.ShloMosaic Idealize.ShloMosaic.TcCoe Idealize.SL.Sem
open Idealize.ShloMosaic.ValueIdx

namespace Cert.KernelIdeal.Finite

open Cert.KernelIdeal

instance : Subsingleton Cert.Pre_finite_inputs.S_.Idx := ⟨fun a b => funext fun d => d.elim0⟩

/-- An extended real whose absolute value is below +∞ is a real number. -/
theorem isReal_of_abs_lt_inf (a : EReal)
    (h : Ideal.cmp .olt (max a (-a)) (Ideal.ofBits .f32 0x7F800000#32) = 1#1) : ∃ r : ℝ, a = (r : EReal) := by
  have htop : Ideal.ofBits .f32 0x7F800000#32 = ⊤ := by simp [Ideal.ofBits, Ideal.ieee]
  rw [htop] at h
  induction a using EReal.rec with
  | bot => exfalso; simp [Ideal.cmp] at h
  | coe r => exact ⟨r, rfl⟩
  | top => exfalso; simp [Ideal.cmp] at h

/-- One array's part of the precondition gives that each of its entries is a real number. -/
theorem entries_real {s : Shape} {axes : List (Fin s.rank)} (x : FVec Ideal s .f32)
    (b : Cert.Pre_finite_inputs.S_.BroadcastsInDim s (![] : Fin 0 → Fin s.rank))
    (hred : s.ReducesTo axes Cert.Pre_finite_inputs.S_) (hu : 0 < Cert.Pre_finite_inputs.S_.numel)
    (e : Host.reduce IntOp.andi
          (cmpf (F := Ideal) .olt (Host.absf x)
            (broadcastInDim s ![] b (constant Cert.Pre_finite_inputs.S_ .f32 0x7F800000#32)))
          (constantI Cert.Pre_finite_inputs.S_ 1 1#1) hred hu ix0 = 1#1)
    (i : s.Idx) : ∃ r : ℝ, x i = (r : EReal) :=
  isReal_of_abs_lt_inf (x i) (Host.reduce_andi_all _ _ hred hu ix0 e i)

/-- Under the precondition every entry of every argument array is a real number. -/
theorem args_real (m : (ℓ : Loc nD τ sig) → Buf (Elt Ideal) ℓ) (hpre : Cert.Pre_KernelIdeal m) (c : Dev nD) :
    (∀ i, ∃ r : ℝ, (m ((c : Thread nD τ).loc main_arg0) : S1024x4096.Idx → EReal) i = (r : EReal))
    ∧ (∀ i, ∃ r : ℝ, (m ((c : Thread nD τ).loc main_arg1) : S4096x410.Idx → EReal) i = (r : EReal))
    ∧ (∀ i, ∃ r : ℝ, (m ((c : Thread nD τ).loc main_arg2) : S410.Idx → EReal) i = (r : EReal))
    ∧ (∀ i, ∃ r : ℝ, (m ((c : Thread nD τ).loc main_arg3) : S4096x410.Idx → EReal) i = (r : EReal))
    ∧ (∀ i, ∃ r : ℝ, (m ((c : Thread nD τ).loc main_arg4) : S4096x4096.Idx → EReal) i = (r : EReal)) := by
  have h := congrFun (hpre c) ix0
  dsimp only [Cert.Pre_finite_inputs.fn, Cert.Pre_finite_inputs.fn_part1] at h
  obtain ⟨h0123, h4⟩ := IntOp.andi_eq_one.mp h
  obtain ⟨h012, h3⟩ := IntOp.andi_eq_one.mp h0123
  obtain ⟨h01, h2⟩ := IntOp.andi_eq_one.mp h012
  obtain ⟨h0, h1⟩ := IntOp.andi_eq_one.mp h01
  exact ⟨entries_real _ _ _ _ h0, entries_real _ _ _ _ h1, entries_real _ _ _ _ h2, entries_real _ _ _ _ h3,
    entries_real _ _ _ _ h4⟩

end Cert.KernelIdeal.Finite

end
-- ==== Proof.lean ====
/-
  A linear layer with a low-rank correction of its weight: the kernel against its reference, over the extended reals.

  The reference forms the merged weight  W + (U · diag σ) · Vᵀ  and multiplies the input by its transpose:

      out(p, o) = ∑_i x(p, i) · ( W(o, i) + ∑_r (U(o, r) · σ_r) · V(i, r) ).

  The kernel never forms the merged weight. The host prepares  t = x · V  and  us = U · diag σ, both padded with zero
  columns from 410 to 512, and the kernel, for each tile j of 1024 output columns, starts an accumulator at
  t · usᵀ (block j of us) and adds, over eight steps k, the product of the input's columns 512·k … 512·k + 511 with the
  transposed weight block (j, k); the last step writes the accumulator to output block j:

      out(p, o) = ∑_{r < 512} t(p, r) · us(o, r) + ∑_{k < 8} ∑_{l < 512} x(p, 512k + l) · W(o, 512k + l).

  The padded columns contribute 0 · 0; the eight tiles make up the sum over the 4096 contraction positions; and when
  every entry of the five arguments is a real number — which the precondition says — the product distributes over the
  inner sum and the two finite sums exchange, so the two forms agree entry by entry. Changes of float format are the
  identity on extended reals, and a matrix unit accumulating into zero is the plain sum of products.

  The three frames: the two kernels' are the generated frame certificates; the reference's is its generated run with
  the result dropped. The kernel's idealization rewrote nothing, so its ledger is empty.
-/
import proofs.«111800_j77240691851703_2_alg».proof.Defs
import proofs.«111800_j77240691851703_2_alg».proof.Proof.Gen.Kernel
import proofs.«111800_j77240691851703_2_alg».proof.Proof.Gen.Kernel.Skeleton
import proofs.«111800_j77240691851703_2_alg».proof.Proof.Gen.Kernel.Launch
import proofs.«111800_j77240691851703_2_alg».proof.Proof.Gen.Kernel.Points
import proofs.«111800_j77240691851703_2_alg».proof.Proof.Gen.Kernel.Frame
import proofs.«111800_j77240691851703_2_alg».proof.Proof.Gen.KernelIdeal
import proofs.«111800_j77240691851703_2_alg».proof.Proof.Gen.KernelIdeal.Skeleton
import proofs.«111800_j77240691851703_2_alg».proof.Proof.Gen.KernelIdeal.Launch
import proofs.«111800_j77240691851703_2_alg».proof.Proof.Gen.KernelIdeal.Points
import proofs.«111800_j77240691851703_2_alg».proof.Proof.Gen.KernelIdeal.Frame
import proofs.«111800_j77240691851703_2_alg».proof.Proof.Gen.ReferenceIdeal
import proofs.«111800_j77240691851703_2_alg».proof.Proof.Gen.Pre_finite_inputs
import proofs.«111800_j77240691851703_2_alg».proof.Proof.Gen.KernelIdeal.Value
import proofs.«111800_j77240691851703_2_alg».proof.Proof.Gen.ReferenceIdeal.Run
import proofs.«111800_j77240691851703_2_alg».proof.Proof.Gen.ReferenceIdeal.Read
import proofs.«111800_j77240691851703_2_alg».proof.Proof.KernelRun
import proofs.«111800_j77240691851703_2_alg».proof.Proof.RefValue
import proofs.«111800_j77240691851703_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the same result array: the kernel's is the factored form of the arguments, the
    reference's the direct form, and for the real entries the precondition gives these are equal. -/
theorem algebraic : Cert.algebraic_KernelIdeal_ReferenceIdeal := by
  intro m ρ m' ρ' hpre hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.Direct.reference_eq_direct,
    (hagree c).1, (hagree c).2.1, (hagree c).2.2.1, (hagree c).2.2.2.1, (hagree c).2.2.2.2]
  obtain ⟨hx, hu, hs, hv, hw⟩ := Cert.KernelIdeal.Finite.args_real m hpre c
  exact (Cert.SvdLinear.factored_eq_direct _ _ _ _ _ hx hu hs hv hw).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
